-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x65536x64 : Shape := ⟨3, ![16, 65536, 64]⟩
abbrev S4096x64x9 : Shape := ⟨3, ![4096, 64, 9]⟩
abbrev S_ : Shape := ⟨0, ![]⟩

class Facts : Prop where
  bcast_S_S16x65536x64 : S_.BroadcastsInDim S16x65536x64 (![] : Fin 0 → Fin S16x65536x64.rank)
  reducesTo_S16x65536x64_S_d0_1_2 : S16x65536x64.ReducesTo [0, 1, 2] S_
  h_S_ : 0 < S_.numel

variable [Facts]

def fn {F : FTy → Type} [FloatOps F] (main_arg0 : FVec F S16x65536x64 .f32) (main_arg1 : IVec S4096x64x9 32) : IVec S_ 1 :=
  let main_v0 : FVec F S16x65536x64 .f32 := Host.absf main_arg0
  let main_cst : FVec F S_ .f32 := constant S_ .f32 0x7F800000#32
  let main_v1 : FVec F S16x65536x64 .f32 := broadcastInDim S16x65536x64 ![] bcast_S_S16x65536x64 main_cst
  let main_v2 : IVec S16x65536x64 1 := cmpf .olt main_v0 main_v1
  let main_c : IVec S_ 1 := constantI S_ 1 1#1
  let main_v3 : IVec S_ 1 := (fun x v => Host.reduce IntOp.andi x v reducesTo_S16x65536x64_S_d0_1_2 h_S_) main_v2 main_c
  main_v3
-- ==== Kernel.lean ====
abbrev S16x65536x64 : Shape := ⟨3, ![16, 65536, 64]⟩
abbrev S4096x64x9 : Shape := ⟨3, ![4096, 64, 9]⟩
abbrev S2048x128x9 : Shape := ⟨3, ![2048, 128, 9]⟩
abbrev S2048x9x128 : Shape := ⟨3, ![2048, 9, 128]⟩
abbrev S128 : Shape := ⟨1, ![128]⟩
abbrev S_ : Shape := ⟨0, ![]⟩
abbrev S1x1x128 : Shape := ⟨3, ![1, 1, 128]⟩
abbrev S2048x9x128x1 : Shape := ⟨4, ![2048, 9, 128, 1]⟩
abbrev S2048x9x128x2 : Shape := ⟨4, ![2048, 9, 128, 2]⟩
abbrev S16x2048x9x128 : Shape := ⟨4, ![16, 2048, 9, 128]⟩
abbrev S16x2048x128 : Shape := ⟨3, ![16, 2048, 128]⟩
abbrev S8x128x9x128 : Shape := ⟨4, ![8, 128, 9, 128]⟩
abbrev S8x128x128 : Shape := ⟨3, ![8, 128, 128]⟩
abbrev S16x4096x64 : Shape := ⟨3, ![16, 4096, 64]⟩

abbrev nBuf : Space → Nat
  | .hbm => 49
  | .vmem => 4
  | .smem => 0
  | _ => 0

abbrev bufTy : (tb : Table) → Fin (tcTables nBuf tb) → BufTy
  | .hbm, ⟨0, _⟩ => ⟨S16x65536x64, .f32⟩
  | .hbm, ⟨1, _⟩ => ⟨S4096x64x9, .i32⟩
  | .hbm, ⟨2, _⟩ => ⟨S2048x128x9, .i32⟩
  | .hbm, ⟨3, _⟩ => ⟨S2048x9x128, .i32⟩
  | .hbm, ⟨4, _⟩ => ⟨S128, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S_, .i32⟩
  | .hbm, ⟨20, _⟩ => ⟨S_, .i1⟩
  | .hbm, ⟨21, _⟩ => ⟨S128, .i1⟩
  | .hbm, ⟨22, _⟩ => ⟨S128, .i1⟩
  | .hbm, ⟨23, _⟩ => ⟨S128, .i1⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S1x1x128, .i32⟩
  | .hbm, ⟨28, _⟩ => ⟨S_, .i32⟩
  | .hbm, ⟨29, _⟩ => ⟨S2048x9x128, .i32⟩
  | .hbm, ⟨30, _⟩ => ⟨S2048x9x128, .i1⟩
  | .hbm, ⟨31, _⟩ => ⟨S_, .i32⟩
  | .hbm, ⟨32, _⟩ => ⟨S2048x9x128, .i32⟩
  | .hbm, ⟨33, _⟩ => ⟨S2048x9x128, .i32⟩
  | .hbm, ⟨34, _⟩ => ⟨S2048x9x128, .i32⟩
  | .hbm, ⟨35, _⟩ => ⟨S_, .i32⟩
  | .hbm, ⟨36, _⟩ => ⟨S1x1x128, .i32⟩
  | .hbm, ⟨37, _⟩ => ⟨S1x1x128, .i1⟩
  | .hbm, ⟨38, _⟩ => ⟨S_, .i32⟩
  | .hbm, ⟨39, _⟩ => ⟨S1x1x128, .i32⟩
  | .hbm, ⟨40, _⟩ => ⟨S1x1x128, .i32⟩
  | .hbm, ⟨41, _⟩ => ⟨S1x1x128, .i32⟩
  | .hbm, ⟨42, _⟩ => ⟨S2048x9x128, .i32⟩
  | .hbm, ⟨43, _⟩ => ⟨S2048x9x128x1, .i32⟩
  | .hbm, ⟨44, _⟩ => ⟨S2048x9x128x1, .i32⟩
  | .hbm, ⟨45, _⟩ => ⟨S2048x9x128x2, .i32⟩
  | .hbm, ⟨46, _⟩ => ⟨S16x2048x9x128, .f32⟩
  | .hbm, ⟨47, _⟩ => ⟨S16x2048x128, .f32⟩
  | .hbm, ⟨48, _⟩ => ⟨S16x4096x64, .f32⟩
  | .local _ .vmem, ⟨0, _⟩ => ⟨S8x128x9x128, .f32⟩
  | .local _ .vmem, ⟨1, _⟩ => ⟨S8x128x9x128, .f32⟩
  | .local _ .vmem, ⟨2, _⟩ => ⟨S8x128x128, .f32⟩
  | .local _ .vmem, ⟨3, _⟩ => ⟨S8x128x128, .f32⟩
  | _, _ => ⟨S16x65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v3 : Ref sig .tc := ⟨.hbm, 26, rfl⟩
abbrev main_v4 : Ref sig .tc := ⟨.hbm, 27, rfl⟩
abbrev main_c_0 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_2 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x9x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S4096x64x9_S2048x128x9 : S4096x64x9.ShapeCasts S2048x128x9
  transposes_S2048x128x9_S2048x9x128_0_2_1 : S2048x128x9.Transposes [0, 2, 1] S2048x9x128
  bcast_S_S128 : S_.BroadcastsInDim S128 (![] : Fin 0 → Fin S128.rank)
  bcast_S128_S1x1x128_2 : S128.BroadcastsInDim S1x1x128 (![2] : Fin 1 → Fin S1x1x128.rank)
  bcast_S_S2048x9x128 : S_.BroadcastsInDim S2048x9x128 (![] : Fin 0 → Fin S2048x9x128.rank)
  bcast_S_S1x1x128 : S_.BroadcastsInDim S1x1x128 (![] : Fin 0 → Fin S1x1x128.rank)
  bcast_S1x1x128_S2048x9x128_0_1_2 : S1x1x128.BroadcastsInDim S2048x9x128 (![0, 1, 2] : Fin 3 → Fin S2048x9x128.rank)
  bcast_S2048x9x128_S2048x9x128x1_0_1_2 : S2048x9x128.BroadcastsInDim S2048x9x128x1 (![0, 1, 2] : Fin 3 → Fin S2048x9x128x1.rank)
  concatenates_S2048x9x128x1_S2048x9x128x1_S2048x9x128x2_d3 : Shape.Concatenates [S2048x9x128x1, S2048x9x128x1] S2048x9x128x2 3
  inb_S8x128x9x128_S8x128x9x128_0_0_0_0 : ∀ a, (![0, 0, 0, 0] : Fin 4 → Nat) a + S8x128x9x128.size a ≤ S8x128x9x128.size a
  h_S8x128x9x128 : 0 < S8x128x9x128.numel
  shapeCasts_S8x128x9x128_S8x128x9x128 : S8x128x9x128.ShapeCasts S8x128x9x128
  reduces_S8x128x9x128_S8x128x128 : S8x128x9x128.Reduces [2] S8x128x128
  inb_S8x128x128_S8x128x128_0_0_0 : ∀ a, (![0, 0, 0] : Fin 3 → Nat) a + S8x128x128.size a ≤ S8x128x128.size a
  h_S8x128x128 : 0 < S8x128x128.numel
  shapeCasts_S16x2048x128_S16x4096x64 : S16x2048x128.ShapeCasts S16x4096x64
  gather_S16x65536x64_S2048x9x128x2_S16x2048x9x128_0_12_n_n_12_3_1611_wf : GatherDims.WF S16x65536x64 S2048x9x128x2 S16x2048x9x128 [0] [1, 2] [] [1, 2] [] 3 ![16, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x9x128.size a ≤ S16x2048x9x128.size a
  hwx0_0 : ∀ i : grid0.Coords, EltTy.bits .f32 = 32 ∨ (Rect.block (s := S16x2048x9x128) S8x128x9x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x128.size a ≤ S16x2048x128.size a
  hwx0_1 : ∀ i : grid0.Coords, EltTy.bits .f32 = 32 ∨ (Rect.block (s := S16x2048x128) S8x128x128.size (cc0_transform_1 i) (hinb0_1 i)).WholeWords (EltTy.packing .f32)

variable [Facts₀]

def gather_S16x65536x64_S2048x9x128x2_S16x2048x9x128_0_12_n_n_12_3_1611 : GatherDims S16x65536x64 S2048x9x128x2 S16x2048x9x128 where
  offsetDims := [0]
  collapsedSliceDims := [1, 2]
  operandBatchingDims := []
  startIndicesBatchingDims := []
  startIndexMap := [1, 2]
  indexVectorDim := 3
  sliceSizes := ![16, 1, 1]
  wf := gather_S16x65536x64_S2048x9x128x2_S16x2048x9x128_0_12_n_n_12_3_1611_wf

abbrev win0_0 : Pipeline.Window sig grid0 :=
  Pipeline.Window.ofSpec (Memref.whole main_v19) S8x128x9x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x65536x64 : Shape := ⟨3, ![16, 65536, 64]⟩
abbrev S4096x64x9 : Shape := ⟨3, ![4096, 64, 9]⟩
abbrev S64 : Shape := ⟨1, ![64]⟩
abbrev S1x64x1 : Shape := ⟨3, ![1, 64, 1]⟩
abbrev S_ : Shape := ⟨0, ![]⟩
abbrev S4096x64x9x1 : Shape := ⟨4, ![4096, 64, 9, 1]⟩
abbrev S4096x64x9x2 : Shape := ⟨4, ![4096, 64, 9, 2]⟩
abbrev S16x4096x64x9 : Shape := ⟨4, ![16, 4096, 64, 9]⟩
abbrev S16x4096x64 : Shape := ⟨3, ![16, 4096, 64]⟩

abbrev nBuf : Space → Nat
  | .hbm => 25
  | .vmem => 0
  | .smem => 0
  | _ => 0

abbrev bufTy : (tb : Table) → Fin (tcTables nBuf tb) → BufTy
  | .hbm, ⟨0, _⟩ => ⟨S16x65536x64, .f32⟩
  | .hbm, ⟨1, _⟩ => ⟨S4096x64x9, .i32⟩
  | .hbm, ⟨2, _⟩ => ⟨S64, .i32⟩
  | .hbm, ⟨3, _⟩ => ⟨S1x64x1, .i32⟩
  | .hbm, ⟨4, _⟩ => ⟨S_, .i32⟩
  | .hbm, ⟨5, _⟩ => ⟨S4096x64x9, .i32⟩
  | .hbm, ⟨6, _⟩ => ⟨S4096x64x9, .i1⟩
  | .hbm, ⟨7, _⟩ => ⟨S_, .i32⟩
  | .hbm, ⟨8, _⟩ => ⟨S4096x64x9, .i32⟩
  | .hbm, ⟨9, _⟩ => ⟨S4096x64x9, .i32⟩
  | .hbm, ⟨10, _⟩ => ⟨S4096x64x9, .i32⟩
  | .hbm, ⟨11, _⟩ => ⟨S_, .i32⟩
  | .hbm, ⟨12, _⟩ => ⟨S1x64x1, .i32⟩
  | .hbm, ⟨13, _⟩ => ⟨S1x64x1, .i1⟩
  | .hbm, ⟨14, _⟩ => ⟨S_, .i32⟩
  | .hbm, ⟨15, _⟩ => ⟨S1x64x1, .i32⟩
  | .hbm, ⟨16, _⟩ => ⟨S1x64x1, .i32⟩
  | .hbm, ⟨17, _⟩ => ⟨S1x64x1, .i32⟩
  | .hbm, ⟨18, _⟩ => ⟨S4096x64x9, .i32⟩
  | .hbm, ⟨19, _⟩ => ⟨S4096x64x9x1, .i32⟩
  | .hbm, ⟨20, _⟩ => ⟨S4096x64x9x1, .i32⟩
  | .hbm, ⟨21, _⟩ => ⟨S4096x64x9x2, .i32⟩
  | .hbm, ⟨22, _⟩ => ⟨S16x4096x64x9, .f32⟩
  | .hbm, ⟨23, _⟩ => ⟨S_, .f32⟩
  | .hbm, ⟨24, _⟩ => ⟨S16x4096x64, .f32⟩
  | _, _ => ⟨S16x65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S64_S1x64x1_1 : S64.BroadcastsInDim S1x64x1 (![1] : Fin 1 → Fin S1x64x1.rank)
  bcast_S_S4096x64x9 : S_.BroadcastsInDim S4096x64x9 (![] : Fin 0 → Fin S4096x64x9.rank)
  bcast_S_S1x64x1 : S_.BroadcastsInDim S1x64x1 (![] : Fin 0 → Fin S1x64x1.rank)
  bcast_S1x64x1_S4096x64x9_0_1_2 : S1x64x1.BroadcastsInDim S4096x64x9 (![0, 1, 2] : Fin 3 → Fin S4096x64x9.rank)
  bcast_S4096x64x9_S4096x64x9x1_0_1_2 : S4096x64x9.BroadcastsInDim S4096x64x9x1 (![0, 1, 2] : Fin 3 → Fin S4096x64x9x1.rank)
  concatenates_S4096x64x9x1_S4096x64x9x1_S4096x64x9x2_d3 : Shape.Concatenates [S4096x64x9x1, S4096x64x9x1] S4096x64x9x2 3
  reducesTo_S16x4096x64x9_S16x4096x64_d3 : S16x4096x64x9.ReducesTo [3] S16x4096x64
  h_S_ : 0 < S_.numel
  gather_S16x65536x64_S4096x64x9x2_S16x4096x64x9_0_12_n_n_12_3_1611_wf : GatherDims.WF S16x65536x64 S4096x64x9x2 S16x4096x64x9 [0] [1, 2] [] [1, 2] [] 3 ![16, 1, 1]

variable [Facts₀]

def gather_S16x65536x64_S4096x64x9x2_S16x4096x64x9_0_12_n_n_12_3_1611 : GatherDims S16x65536x64 S4096x64x9x2 S16x4096x64x9 where
  offsetDims := [0]
  collapsedSliceDims := [1, 2]
  operandBatchingDims := []
  startIndicesBatchingDims := []
  startIndexMap := [1, 2]
  indexVectorDim := 3
  sliceSizes := ![16, 1, 1]
  wf := gather_S16x65536x64_S4096x64x9x2_S16x4096x64x9_0_12_n_n_12_3_1611_wf

class Facts : Prop extends Facts₀ where

variable [Facts]
-- ==== Proof.Spec.lean ====
/-
  What both programs compute, as one function of the two argument arrays.

  `x : [16, 65536, 64]` holds, per batch `b`, a table of 65536 rows and 64 channels; `lrf : [4096, 64, 9]` holds, for
  each output position `m` and channel `p`, nine row numbers.  The result at `(b, m, p)` is the largest of the nine
  entries `x[b, lrf[m, p, l], p]`, `l = 0 … 8`, the maximum started from the value of the f32 word `0xFF800000`
  (minus infinity).  A row number is read the way jax's indexing reads it: a negative word has 65536 added, and
  the result, read signed, is clamped into `[0, 65535]` (the gather's own clamp).
-/
import Idealize.ShloMosaic.Lib.ValueIdx
import Idealize.ShloMosaic.PureOps.Ideal.Laws

noncomputable section

namespace Cert.LrfMax

open Idealize.ShloMosaic Idealize.ShloMosaic.ValueIdx

/-- A row word with a negative value wrapped: `w + 65536` when `w < 0` (signed), else `w`. -/
def wrapRow (w : BitVec 32) : BitVec 32 :=
  Scalar.select (IntOp.cmpi .slt w 0#32) (IntOp.addi w 65536#32) w

/-- The row of `x` a row word names: wrapped, read signed, clamped into `[0, 65535]`. -/
def rowOf (w : BitVec 32) : Fin 65536 := ⟨min (wrapRow w).toInt.toNat (65536 - 1), by omega⟩

/-- The maximum of nine extended reals, started from minus infinity's word. -/
def max9 (f : Fin 9 → EReal) : EReal :=
  (Finset.univ : Finset (Fin 9)).fold max (Ideal.ofBits .f32 0xFF800000#32) f

/-- THE RESULT: at `(b, m, p)` the maximum over `l` of `x[b, row(lrf[m, p, l]), p]`. -/
def pooled (x : FVec Ideal ⟨3, ![16, 65536, 64]⟩ .f32) (lrf : IVec ⟨3, ![4096, 64, 9]⟩ 32) :
    FVec Ideal ⟨3, ![16, 4096, 64]⟩ .f32 :=
  fun j => max9 fun l => x (ix3 (j 0) (rowOf (lrf (ix3 (j 1) (j 2) l))) (j 2))

theorem pooled_apply (x : FVec Ideal ⟨3, ![16, 65536, 64]⟩ .f32) (lrf : IVec ⟨3, ![4096, 64, 9]⟩ 32)
    (b : Fin 16) (m : Fin 4096) (p : Fin 64) :
    pooled x lrf (ix3 b m p) = max9 fun l => x (ix3 b (rowOf (lrf (ix3 m p l))) p) := rfl

/-! ## The channel word

The reference names the channel of `(m, p, l)` by the word of `p` itself; the kernel names the channel of its packed
lane `c ∈ [0, 128)` by `c mod 64`, computed with a signed remainder and its sign correction.  Both then pass through
jax's negative-index wrap (add 64 when negative) and the gather's clamp into `[0, 63]`. -/

/-- jax's wrap of a channel word: `w + 64` when `w < 0`. -/
def wrapChan (w : BitVec 32) : BitVec 32 :=
  Scalar.select (IntOp.cmpi .slt w 0#32) (IntOp.addi w 64#32) w

/-- `jnp.remainder(w, 64)` as jax lowers it: the signed remainder, with the divisor added back when the remainder
    is nonzero and its sign differs from the divisor's. -/
def remChan (w : BitVec 32) : BitVec 32 :=
  let r := IntOp.remsi .host w 64#32
  Scalar.select
    (IntOp.andi (IntOp.cmpi .ne (IntOp.cmpi .slt r 0#32) (IntOp.cmpi .slt 64#32 0#32)) (IntOp.cmpi .ne r 0#32))
    (IntOp.addi r 64#32) r

/-- For a channel `p < 64`, its word wrapped and clamped is `p`. -/
theorem chan_ref : ∀ p : Fin 64, min (wrapChan (BitVec.ofNat 32 p.val)).toInt.toNat (64 - 1) = p.val := by
  decide +kernel

/-- For a packed lane `c < 128`, its word's remainder by 64, wrapped and clamped, is `c mod 64`. -/
theorem chan_ker : ∀ c : Fin 128, min (wrapChan (remChan (BitVec.ofNat 32 c.val))).toInt.toNat (64 - 1) = c.val % 64 := by
  decide +kernel

end Cert.LrfMax

end
-- ==== Proof.KerBody.lean ====
/-
  The kernel body's stored value, read at an index.

  The body loads its whole input block `[8, 128, 9, 128]`, reduces it by maximum over axis 2 (the nine gathered
  rows) from minus infinity, and stores the `[8, 128, 128]` result whole.  At `(b, r, c)` of the output block the
  stored value is the maximum over `l` of the loaded block at `(b, r, l, c)`.
-/
import proofs.«178115_j15247133900972_2_alg».proof.Proof.Gen.KernelIdeal.Skeleton
import proofs.«178115_j15247133900972_2_alg».proof.Proof.Spec
import Idealize.ShloMosaic.Lib.Pipeline.Value
import Idealize.ShloMosaic.PureOps.Ideal.Laws

noncomputable section

namespace Cert.KernelIdeal.KerValue

open Cert.KernelIdeal Cert.KernelIdeal.Gen
open Idealize.ShloMosaic Idealize.ShloMosaic.ValueIdx Cert.LrfMax

/-- The reduction of a `[8, 128, 9, 128]` vector over axis 2 by maximum from the word `0xFF800000`, at `(b, r, c)`:
    the maximum of the nine entries `(b, r, l, c)`.  The two proof arguments are typed as the printed body's are. -/
theorem rowMax_apply (v : FVec Ideal S8x128x9x128 .f32) (h : S8x128x9x128.Reduces [2] S8x128x128)
    (hφ : FKind.Formats .f32) (hacc : (0xFF800000#32 : BitVec 32) = FKind.maximumf.neutral .f32 hφ)
    (b : Fin 8) (r : Fin 128) (c : Fin 128) :
    multiReduction (F := Ideal) .maximumf [2] S8x128x128 v 0xFF800000#32 h hφ hacc (ix3 b r c)
      = max9 fun l => v (ix4 b r l c) := by
  have e := Ideal.multiReduction_maximumf_single (a := (2 : Fin 4)) v 0xFF800000#32 h hφ hacc (ix3 b r c)
  refine e.trans ?_
  unfold max9
  refine congrArg (fun f => (Finset.univ : Finset (Fin 9)).fold max (Ideal.ofBits .f32 0xFF800000#32) f) (funext fun (l : Fin 9) => ?_)
  show v (h.lift (ix3 b r c) l) = v (ix4 b r l c)
  refine congrArg v (funext fun a => Fin.ext ?_)
  match a with
  | ⟨0, _⟩ => rfl
  | ⟨1, _⟩ => rfl
  | ⟨2, _⟩ => rfl
  | ⟨3, _⟩ => rfl

/-- THE BODY'S STORE at `(b, r, c)`: the maximum over `l` of the loaded block at `(b, r, l, c)`. -/
theorem pay_apply (v0 : Vec Ideal S8x128x9x128 .f32) (b : Fin 8) (r : Fin 128) (c : Fin 128) :
    k0_pay1 (F := Ideal) v0 (ix3 b r c) = max9 fun l => v0 (ix4 b r l c) := by
  unfold k0_pay1
  dsimp only
  rw [shapeCast_self]
  exact rowMax_apply v0 _ _ _ b r c

end Cert.KernelIdeal.KerValue

end
-- ==== Proof.KerBlocks.lean ====
/-
  From the blocks the grid points write back to the region's whole output array.

  The grid has 2 × 16 points; point `(i, k)` reads block `(i, k, 0, 0)` of the gathered array `[16, 2048, 9, 128]`
  (blocks of `[8, 128, 9, 128]`) and writes block `(i, k, 0)` of the output array `[16, 2048, 128]` (blocks of
  `[8, 128, 128]`).  Entry `(b, r, c)` of the written block is the maximum over `l` of the input block at
  `(b, r, l, c)`, and the two blocks sit at the same offsets on the axes they share, so every written block is a
  block of ONE function of the gathered array: at `(B, R, C)` the maximum over `l` of the gathered array at
  `(B, R, l, C)`.  The output blocks tile the output array, so after the region it holds that function.
-/
import proofs.«178115_j15247133900972_2_alg».proof.Proof.Gen.KernelIdeal.Frame
import proofs.«178115_j15247133900972_2_alg».proof.Proof.KerBody

noncomputable section

namespace Cert.KernelIdeal.KerValue

open Cert.KernelIdeal Cert.KernelIdeal.Gen
open Idealize.ShloMosaic Idealize.ShloMosaic.TcCoe Idealize.ShloMosaic.ValueIdx Idealize.SL.Sem Cert.LrfMax
open Idealize.ShloMosaic.Pipeline (Dat)

variable (m : (ℓ : Loc nD τ sig) → Buf (Elt Ideal) ℓ)

/-- An index of the gathered array from an index `(B, R, C)` of the output array and a row `l` of the nine. -/
def withRow (i : S16x2048x128.Idx) (l : Fin 9) : S16x2048x9x128.Idx := fun a => match a with
  | ⟨0, _⟩ => ⟨(i 0).val, (i 0).isLt⟩
  | ⟨1, _⟩ => ⟨(i 1).val, (i 1).isLt⟩
  | ⟨2, _⟩ => l
  | ⟨3, _⟩ => ⟨(i 2).val, (i 2).isLt⟩

/-- The maximum over the nine rows, everywhere: what the region leaves in its output array, as a function of the
    array it reads. -/
def rowMaxAll (g : FVec Ideal S16x2048x9x128 .f32) : FVec Ideal S16x2048x128 .f32 :=
  fun i => max9 fun l => g (withRow i l)

theorem rowMaxAll_apply (g : FVec Ideal S16x2048x9x128 .f32) (B : Fin 16) (R : Fin 2048) (C : Fin 128) :
    rowMaxAll g (ix3 B R C) = max9 fun l => g (ix4 B R l C) := by
  unfold rowMaxAll
  refine congrArg max9 (funext fun l => congrArg g (funext fun a => Fin.ext ?_))
  match a with
  | ⟨0, _⟩ => rfl
  | ⟨1, _⟩ => rfl
  | ⟨2, _⟩ => rfl
  | ⟨3, _⟩ => rfl

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps, decided over the 32 grid points: the input block and the output block of a point have
    the same block index on the batch axis and on the position axis, block index 0 on the other axes, and the
    output's block indices stay in their ranges. -/
theorem index_facts : ∀ t : Fin cfg0.N,
    win0_0.index t (0 : Fin 4) = win0_1.index t (0 : Fin 3)
    ∧ win0_0.index t (1 : Fin 4) = win0_1.index t (1 : Fin 3)
    ∧ win0_0.index t (2 : Fin 4) = 0
    ∧ win0_0.index t (3 : Fin 4) = 0
    ∧ win0_1.index t (2 : Fin 3) = 0
    ∧ win0_1.index t (0 : Fin 3) ≤ 1
    ∧ win0_1.index t (1 : Fin 3) ≤ 15 :=
  (by decide +kernel : ∀ t : Fin grid0.N, _)

/-- Every output block `(q0, q1, 0)` is some point's. -/
theorem index_onto : ∀ (q0 : Fin 2) (q1 : Fin 16), ∃ t : Fin cfg0.N, win0_1.index t = ![q0.val, q1.val, 0] :=
  (by decide +kernel : ∀ (q0 : Fin 2) (q1 : Fin 16), ∃ t : Fin grid0.N, win0_1.index t = ![q0.val, q1.val, 0])

/-- WHAT POINT `t` WRITES BACK is block `t` of `rowMaxAll` of the gathered array as the region finds it. -/
theorem flushed_eq (c : Dev nD) (t : Fin cfg0.N) :
    (dats m 0 c).flushed 1 t = ((cfg0.win 1).blk t).view.read (Elt Ideal) (rowMaxAll (V m c main_v19)) := by
  show (cfg0.win 1).cut (grid0.coords t) ((dats m 0 c).after 1 t) = _
  rw [after0_1]
  unfold out0_1
  rw [View.canon_unit_zero zero3]
  simp only [View.ld_unit_zero (S := S8x128x9x128) zero4]
  obtain ⟨e0, e1, e2, e3, e4, e5, e6⟩ := index_facts t
  funext j
  obtain ⟨b, r, c', rfl⟩ : ∃ (b : Fin 8) (r : Fin 128) (c' : Fin 128), j = ix3 b r c' := ⟨j 0, j 1, j 2, eq_ix3 j⟩
  show k0_pay1 (F := Ideal) (iblk m c 0 t) (ix3 b r c') = rowMaxAll (V m c main_v19) (((cfg0.win 1).blk t).view.emb (ix3 b r c'))
  refine (pay_apply (iblk m c 0 t) b r c').trans ?_
  unfold rowMaxAll
  refine congrArg max9 (funext fun l => ?_)
  show V m c main_v19 (((cfg0.win 0).blk t).view.emb (ix4 b r l c')) = V m c main_v19 (withRow (((cfg0.win 1).blk t).view.emb (ix3 b r c')) l)
  refine congrArg (V m c main_v19) (funext fun a => Fin.ext ?_)
  match a with
  | ⟨0, _⟩ => show win0_0.index t (0 : Fin 4) * 8 + 1 * b.val = win0_1.index t (0 : Fin 3) * 8 + 1 * b.val; omega
  | ⟨1, _⟩ => show win0_0.index t (1 : Fin 4) * 128 + 1 * r.val = win0_1.index t (1 : Fin 3) * 128 + 1 * r.val; omega
  | ⟨2, _⟩ => show win0_0.index t (2 : Fin 4) * 9 + 1 * l.val = l.val; omega
  | ⟨3, _⟩ => show win0_0.index t (3 : Fin 4) * 128 + 1 * c'.val = win0_1.index t (2 : Fin 3) * 128 + 1 * c'.val; omega

/-- An index of the output array is in point `t`'s block iff each coordinate is in the block's range on its axis. -/
theorem mem_blk (t : Fin cfg0.N) (i : S16x2048x128.Idx) :
    i ∈ ((cfg0.win 1).blk t).view.set ↔ ∀ a : Fin 3, win0_1.index t a * S8x128x128.size a ≤ (i a).val ∧ (i a).val < win0_1.index t a * S8x128x128.size a + S8x128x128.size a := by
  show i ∈ ((View.whole main_v20).slice (win0_1.rect t)).set ↔ _
  rw [View.set_slice_whole, Rect.mem_set_unit]
  exact Iff.rfl

/-- The output blocks tile the output array: index `(B, R, C)` is in the block of the point whose output block is
    `(B / 8, R / 128, 0)`. -/
theorem covered (i : S16x2048x128.Idx) :
    ∃ t : Fin cfg0.N, (cfg0.win 1).flush t = true ∧ i ∈ ((cfg0.win 1).blk t).view.set := by
  have hi0 : (i 0).val < 16 := (i 0).isLt
  have hi1 : (i 1).val < 2048 := (i 1).isLt
  have hi2 : (i 2).val < 128 := (i 2).isLt
  obtain ⟨t, ht⟩ := index_onto ⟨(i 0).val / 8, by omega⟩ ⟨(i 1).val / 128, by omega⟩
  have q0 : win0_1.index t (0 : Fin 3) = (i 0).val / 8 := congrFun ht 0
  have q1 : win0_1.index t (1 : Fin 3) = (i 1).val / 128 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 128 ≤ (i 1).val ∧ (i 1).val < win0_1.index t (1 : Fin 3) * 128 + 128; omega
  | ⟨2, _⟩ => show win0_1.index t (2 : Fin 3) * 128 ≤ (i 2).val ∧ (i 2).val < win0_1.index t (2 : Fin 3) * 128 + 128; omega

/-- THE OUTPUT ARRAY after the region: `rowMaxAll` of the gathered array. -/
theorem region_out (c : Dev nD) : (dats m 0 c).arrAt 1 cfg0.N = rowMaxAll (V m c main_v19) :=
  (dats m 0 c).arrAt_eq_of_cover 1 (rowMaxAll (V m c main_v19)) (fun t _ => flushed_eq m c t) covered

end Cert.KernelIdeal.KerValue

end
-- ==== Proof.KerHost.lean ====
/-
  The array the region reads, as a term of the two arguments.

  Before the region the host code (i) reshapes the index array `lrf : [4096, 64, 9]` to `[2048, 128, 9]` and
  transposes it to `[2048, 9, 128]` (`rowsK`), (ii) computes the channel word of each of the 128 packed lanes as
  `jnp.remainder(iota, 64)` (`chanK`), and (iii) gathers `x` at the start indices that join the wrapped row words
  and the wrapped channel words, broadcast over the other axes (`startK`, `gatheredK`).  The host operations are
  read in three stretches, each from an arbitrary valuation of the buffers, and then composed.
-/
import proofs.«178115_j15247133900972_2_alg».proof.Proof.Gen.KernelIdeal.Frame
import Idealize.ShloMosaic.Lib.StableHlo.Run

noncomputable section

namespace Cert.KernelIdeal.KerHost

open Cert.KernelIdeal Cert.KernelIdeal.Gen
open Idealize.ShloMosaic Idealize.ShloMosaic.TcCoe Idealize.SL.Sem Idealize.ShloMosaic.StableHlo

variable {F : FTy → Type} [FloatOps F]

/-! ## The three stretches as pure terms -/

/-- The index array as the gather reads it: reshaped `[4096, 64, 9] → [2048, 128, 9]`, transposed to `[2048, 9, 128]`. -/
def rowsK (li : IVec S4096x64x9 32) : IVec S2048x9x128 32 :=
  transpose S2048x9x128 [0, 2, 1] (shapeCast S2048x128x9 li shapeCasts_S4096x64x9_S2048x128x9)
    transposes_S2048x128x9_S2048x9x128_0_2_1

/-- `jnp.remainder(lanes, d)` as jax lowers it, on the 128 lanes: a zero divisor replaced by one, the signed
    remainder, and the divisor added back where the remainder is nonzero and its sign is not the divisor's. -/
def chanK (lanes : IVec S128 32) (d : IVec S_ 32) : IVec S128 32 :=
  let d' : IVec S_ 32 := select (cmpi .eq (id d) (constantI S_ 32 0#32)) (constantI S_ 32 1#32) (id d)
  let r : IVec S128 32 := Host.remsi lanes (broadcastInDim S128 ![] bcast_S_S128 d')
  select
    (andi
      (cmpi .ne (cmpi .slt r (broadcastInDim S128 ![] bcast_S_S128 (constantI S_ 32 0#32)))
        (broadcastInDim S128 ![] bcast_S_S128 (cmpi .slt d' (constantI S_ 32 0#32))))
      (cmpi .ne r (broadcastInDim S128 ![] bcast_S_S128 (constantI S_ 32 0#32))))
    (addi r (broadcastInDim S128 ![] bcast_S_S128 d')) r

/-- Component 0 of the start indices: the row words wrapped (65536 added to a negative one), with a trailing unit axis. -/
def rowPiece (rows : IVec S2048x9x128 32) : IVec S2048x9x128x1 32 :=
  broadcastInDim S2048x9x128x1 ![0, 1, 2] bcast_S2048x9x128_S2048x9x128x1_0_1_2
    (select (cmpi .slt rows (broadcastInDim S2048x9x128 ![] bcast_S_S2048x9x128 (constantI S_ 32 0#32)))
      (addi rows (broadcastInDim S2048x9x128 ![] bcast_S_S2048x9x128 (constantI S_ 32 65536#32))) rows)

/-- The lanes' channel words wrapped (64 added to a negative one), as a `[1, 1, 128]` array. -/
def chanRow (chan : IVec S128 32) : IVec S1x1x128 32 :=
  select
    (cmpi .slt (broadcastInDim S1x1x128 ![2] bcast_S128_S1x1x128_2 chan)
      (broadcastInDim S1x1x128 ![] bcast_S_S1x1x128 (constantI S_ 32 0#32)))
    (addi (broadcastInDim S1x1x128 ![2] bcast_S128_S1x1x128_2 chan)
      (broadcastInDim S1x1x128 ![] bcast_S_S1x1x128 (constantI S_ 32 64#32)))
    (broadcastInDim S1x1x128 ![2] bcast_S128_S1x1x128_2 chan)

/-- Component 1 of the start indices: the wrapped channel words broadcast over positions and rows, with a trailing
    unit axis. -/
def chanPiece (chan : IVec S128 32) : IVec S2048x9x128x1 32 :=
  broadcastInDim S2048x9x128x1 ![0, 1, 2] bcast_S2048x9x128_S2048x9x128x1_0_1_2
    (broadcastInDim S2048x9x128 ![0, 1, 2] bcast_S1x1x128_S2048x9x128_0_1_2 (chanRow chan))

/-- The start indices `[2048, 9, 128, 2]`: the two components joined along the last axis. -/
def startK (rows : IVec S2048x9x128 32) (chan : IVec S128 32) : IVec S2048x9x128x2 32 :=
  concatenate S2048x9x128x2 3 [⟨S2048x9x128x1, rowPiece rows⟩, ⟨S2048x9x128x1, chanPiece chan⟩]
    concatenates_S2048x9x128x1_S2048x9x128x1_S2048x9x128x2_d3

/-- The gathered array `[16, 2048, 9, 128]`. -/
def gatheredK (x : FVec F S16x65536x64 .f32) (rows : IVec S2048x9x128 32) (chan : IVec S128 32) :
    FVec F S16x2048x9x128 .f32 :=
  Host.gather gather_S16x65536x64_S2048x9x128x2_S16x2048x9x128_0_12_n_n_12_3_1611 x (startK rows chan)

/-! ## The stretches, from any valuation -/

theorem after_append (l₁ l₂ : List (HloOp τ sig (Elt F))) (W : Valuation τ sig (Elt F)) :
    after (l₁ ++ l₂) W = after l₂ (after l₁ W) := by
  induction l₁ generalizing W with
  | nil => rfl
  | cons op l ih => exact ih _

section Stretches

variable (W : Valuation τ sig (Elt F))

/-- First stretch: the row words. -/
theorem first_rows : (after hostOps0 W (Proc.devRef .tc main_v1) : IVec S2048x9x128 32) = rowsK (W (Proc.devRef .tc main_arg1)) := by
  after_results <;> rfl
/-- First stretch: the lanes' iota. -/
theorem first_lanes : (after hostOps0 W (Proc.devRef .tc main_v2) : IVec S128 32) = iotaInDim S128 32 0 := by
  after_results <;> rfl
/-- First stretch: the divisor 64. -/
theorem first_div : (after hostOps0 W (Proc.devRef .tc main_c) : IVec S_ 32) = constantI S_ 32 64#32 := by
  after_results <;> rfl
/-- First stretch: `x` is not written. -/
theorem first_x : after hostOps0 W (Proc.devRef .tc main_arg0) = W (Proc.devRef .tc main_arg0) := by
  after_results <;> rfl

set_option maxHeartbeats 1000000 in
/-- Second stretch: the channel words, from the lanes and the divisor. -/
theorem second_chan : (after hostOps0_1 W (Proc.devRef .tc main_v3) : IVec S128 32)
    = chanK (W (Proc.devRef .tc main_v2)) (W (Proc.devRef .tc main_c)) := by
  after_results <;> rfl
/-- Second stretch: the row words are not written. -/
theorem second_rows : after hostOps0_1 W (Proc.devRef .tc main_v1) = W (Proc.devRef .tc main_v1) := by
  after_results <;> rfl
/-- Second stretch: `x` is not written. -/
theorem second_x : after hostOps0_1 W (Proc.devRef .tc main_arg0) = W (Proc.devRef .tc main_arg0) := by
  after_results <;> rfl

set_option maxHeartbeats 1000000 in
/-- Third stretch: the gathered array, from `x`, the row words and the channel words. -/
theorem third_gathered : (after hostOps0_2 W (Proc.devRef .tc main_v19) : FVec F S16x2048x9x128 .f32)
    = gatheredK (W (Proc.devRef .tc main_arg0)) (W (Proc.devRef .tc main_v1)) (W (Proc.devRef .tc main_v3)) := by
  after_results <;> rfl

end Stretches

/-! ## Composed -/

variable (m : (ℓ : Loc nD τ sig) → Buf (Elt F) ℓ)

/-- THE ARRAY THE REGION READS, of the two arguments as launched. -/
theorem entry_gathered (c : Dev nD) :
    (V m c main_v19 : FVec F S16x2048x9x128 .f32)
      = gatheredK (m ((c : Thread nD τ).loc main_arg0)) (rowsK (m ((c : Thread nD τ).loc main_arg1)))
          (chanK (iotaInDim S128 32 0) (constantI S_ 32 64#32)) := by
  show (after (List.flatten [hostOps0, hostOps0_1, hostOps0_2]) (fun b => m (c, b)) (Proc.devRef .tc main_v19) : FVec F S16x2048x9x128 .f32) = _
  rw [List.flatten_cons, List.flatten_cons, List.flatten_cons, List.flatten_nil, List.append_nil, after_append, after_append,
    third_gathered, second_x, second_rows, second_chan, first_x, first_rows, first_lanes, first_div]

end Cert.KernelIdeal.KerHost

end
-- ==== Proof.LibGatherRowCol.lean ====
/-
  A general lemma about `stablehlo.gather`, read at an index.

  The gather that `x[:, I, J]` lowers to for an operand `x : [B, N, P]` and two integer arrays `I`, `J` of one
  shape `[A1, A2, A3]`: the start indices are the array `[A1, A2, A3, 2]` whose last axis holds the pair
  `(I, J)`, the one offset axis is the operand's axis 0 taken whole, and the operand's axes 1 and 2 are collapsed
  and named by the start index.  Result element `(b, a1, a2, a3)` is the operand at
  `(b, I[a1, a2, a3], J[a1, a2, a3])`, each component read as a signed integer and clamped into its axis
  (`[0, N - 1]` and `[0, P - 1]`), as StableHLO's gather clamps every start index.
-/
import Idealize.ShloMosaic.Lib.ValueIdx

noncomputable section

namespace Idealize.ShloMosaic.GatherRowCol

open Idealize.ShloMosaic Idealize.ShloMosaic.ValueIdx

variable {α : Type}

/-- The dimension numbers of that gather: offset axis `[0]`, collapsed axes `[1, 2]`, start index map `[1, 2]`,
    the index vector on the start indices' axis 3, slice sizes `[B, 1, 1]`.  Their well-formedness `wf` is decided
    on a program's literal shapes. -/
abbrev rowColDims (B N P A1 A2 A3 : Nat)
    (wf : GatherDims.WF ⟨3, ![B, N, P]⟩ ⟨4, ![A1, A2, A3, 2]⟩ ⟨4, ![B, A1, A2, A3]⟩ [0] [1, 2] [] [1, 2] [] 3 ![B, 1, 1]) :
    GatherDims ⟨3, ![B, N, P]⟩ ⟨4, ![A1, A2, A3, 2]⟩ ⟨4, ![B, A1, A2, A3]⟩ where
  offsetDims := [0]
  collapsedSliceDims := [1, 2]
  operandBatchingDims := []
  startIndicesBatchingDims := []
  startIndexMap := [1, 2]
  indexVectorDim := 3
  sliceSizes := ![B, 1, 1]
  wf := wf

section Coordinates

variable {B N P A1 A2 A3 w : Nat}
  (wf : GatherDims.WF ⟨3, ![B, N, P]⟩ ⟨4, ![A1, A2, A3, 2]⟩ ⟨4, ![B, A1, A2, A3]⟩ [0] [1, 2] [] [1, 2] [] 3 ![B, 1, 1])
  (idx : IVec ⟨4, ![A1, A2, A3, 2]⟩ w) (b : Fin B) (a1 : Fin A1) (a2 : Fin A2) (a3 : Fin A3)

theorem not_mem0 : (0 : Fin 3) ∉ ([1, 2] : List (Fin 3)) := by decide
theorem mem1 : (1 : Fin 3) ∈ ([1, 2] : List (Fin 3)) := by decide
theorem mem2 : (2 : Fin 3) ∈ ([1, 2] : List (Fin 3)) := by decide

/-- The start index is read, for its component `k`, at `(a1, a2, a3, k)` of the start indices. -/
theorem siIdx_eq (k : Fin 2) :
    (rowColDims B N P A1 A2 A3 wf).siIdx (ix4 b a1 a2 a3) k = ix4 a1 a2 a3 k := by
  funext c; refine Fin.ext ?_
  match c with
  | ⟨0, _⟩ => rfl
  | ⟨1, _⟩ => rfl
  | ⟨2, _⟩ => rfl
  | ⟨3, _⟩ => rfl

/-- On the operand's axis 0, the offset axis, the operand index is the result's own coordinate. -/
theorem coord0 : ((rowColDims B N P A1 A2 A3 wf).operandIdx (ix4 b a1 a2 a3) idx (0 : Fin 3)).val = b.val := by
  show (rowColDims B N P A1 A2 A3 wf).start (ix4 b a1 a2 a3) idx (0 : Fin 3)
    + (rowColDims B N P A1 A2 A3 wf).batchCoord (ix4 b a1 a2 a3) (0 : Fin 3)
    + (rowColDims B N P A1 A2 A3 wf).offCoord (ix4 b a1 a2 a3) (0 : Fin 3) = _
  have hk : (0 : Fin 3) ∈ (rowColDims B N P A1 A2 A3 wf).sKept :=
    (GatherDims.mem_sKept _ _).mpr ⟨not_mem0, List.not_mem_nil⟩
  rw [GatherDims.batchCoord_eq_zero _ _ _ List.not_mem_nil, Nat.add_zero]
  unfold GatherDims.start GatherDims.offCoord
  rw [dif_neg not_mem0, dif_pos hk, Nat.zero_add]
  rfl

/-- On axis 1 it is the start index's component 0, read signed and clamped into `[0, N - 1]`. -/
theorem coord1 : ((rowColDims B N P A1 A2 A3 wf).operandIdx (ix4 b a1 a2 a3) idx (1 : Fin 3)).val
      = min (idx (ix4 a1 a2 a3 (0 : Fin 2))).toInt.toNat (N - 1) := by
  show (rowColDims B N P A1 A2 A3 wf).start (ix4 b a1 a2 a3) idx (1 : Fin 3)
    + (rowColDims B N P A1 A2 A3 wf).batchCoord (ix4 b a1 a2 a3) (1 : Fin 3)
    + (rowColDims B N P A1 A2 A3 wf).offCoord (ix4 b a1 a2 a3) (1 : Fin 3) = _
  rw [GatherDims.batchCoord_eq_zero _ _ _ List.not_mem_nil, Nat.add_zero,
    GatherDims.offCoord_eq_zero _ _ _ (fun h => ((GatherDims.mem_sKept _ _).mp h).1 mem1), Nat.add_zero]
  unfold GatherDims.start
  rw [dif_pos mem1, siIdx_eq]
  rfl

/-- On axis 2 it is the start index's component 1, read signed and clamped into `[0, P - 1]`. -/
theorem coord2 : ((rowColDims B N P A1 A2 A3 wf).operandIdx (ix4 b a1 a2 a3) idx (2 : Fin 3)).val
      = min (idx (ix4 a1 a2 a3 (1 : Fin 2))).toInt.toNat (P - 1) := by
  show (rowColDims B N P A1 A2 A3 wf).start (ix4 b a1 a2 a3) idx (2 : Fin 3)
    + (rowColDims B N P A1 A2 A3 wf).batchCoord (ix4 b a1 a2 a3) (2 : Fin 3)
    + (rowColDims B N P A1 A2 A3 wf).offCoord (ix4 b a1 a2 a3) (2 : Fin 3) = _
  rw [GatherDims.batchCoord_eq_zero _ _ _ List.not_mem_nil, Nat.add_zero,
    GatherDims.offCoord_eq_zero _ _ _ (fun h => ((GatherDims.mem_sKept _ _).mp h).1 mem2), Nat.add_zero]
  unfold GatherDims.start
  rw [dif_pos mem2, siIdx_eq]
  rfl

end Coordinates

/-- THE GATHER READ AT `(b, a1, a2, a3)`: the operand at row `I[a1, a2, a3]` and column `J[a1, a2, a3]` of batch `b`,
    the two start-index components read signed and clamped into `[0, N - 1]` and `[0, P - 1]`. -/
theorem gather_rowCol_apply {B N P A1 A2 A3 w : Nat} (hN : 0 < N) (hP : 0 < P)
    (wf : GatherDims.WF ⟨3, ![B, N, P]⟩ ⟨4, ![A1, A2, A3, 2]⟩ ⟨4, ![B, A1, A2, A3]⟩ [0] [1, 2] [] [1, 2] [] 3 ![B, 1, 1])
    (x : (⟨3, ![B, N, P]⟩ : Shape).Idx → α) (idx : IVec ⟨4, ![A1, A2, A3, 2]⟩ w)
    (b : Fin B) (a1 : Fin A1) (a2 : Fin A2) (a3 : Fin A3) :
    Host.gather (rowColDims B N P A1 A2 A3 wf) x idx (ix4 b a1 a2 a3)
      = x (ix3 b ⟨min (idx (ix4 a1 a2 a3 (0 : Fin 2))).toInt.toNat (N - 1), by omega⟩
          ⟨min (idx (ix4 a1 a2 a3 (1 : Fin 2))).toInt.toNat (P - 1), by omega⟩) := by
  unfold Host.gather
  congr 1
  funext a
  refine Fin.ext ?_
  match a with
  | ⟨0, _⟩ => exact coord0 wf idx b a1 a2 a3
  | ⟨1, _⟩ => exact coord1 wf idx b a1 a2 a3
  | ⟨2, _⟩ => exact coord2 wf idx b a1 a2 a3

end Idealize.ShloMosaic.GatherRowCol

end
-- ==== Proof.KerHostRead.lean ====
/-
  The array the region reads, at an index.

  `gatheredK x rows chan` at `(b, m2, l, c)` is `x` at batch `b`, at the row the wrapped word `rows[m2, l, c]` names
  (clamped into `[0, 65535]`) and at the channel the wrapped word `chan[c]` names (clamped into `[0, 63]`).  With
  `rows` the reshaped and transposed index array, `rows[m2, l, c] = lrf[2 m2 + c / 64, c mod 64, l]`: a packed row
  of 128 lanes holds the 64 channels of the two consecutive positions `2 m2` and `2 m2 + 1`.  With `chan` the
  remainder of the lane number by 64, the channel is `c mod 64`.
-/
import proofs.«178115_j15247133900972_2_alg».proof.Proof.KerHost
import proofs.«178115_j15247133900972_2_alg».proof.Proof.Spec
import proofs.«178115_j15247133900972_2_alg».proof.Proof.LibGatherRowCol
import Idealize.ShloMosaic.Lib.Pipeline.Value

noncomputable section

namespace Cert.KernelIdeal.KerHost

open Cert.KernelIdeal Cert.KernelIdeal.Gen
open Idealize.ShloMosaic Idealize.ShloMosaic.ValueIdx Idealize.ShloMosaic.GatherRowCol Cert.LrfMax

variable {F : FTy → Type} [FloatOps F]

/-- The reshaped and transposed index array at `(m2, l, c)`: the index array at position `2 m2 + c / 64`, channel
    `c mod 64`, row `l` (same row-major position through the reshape, axes 1 and 2 exchanged by the transpose). -/
theorem rowsK_apply (li : IVec S4096x64x9 32) (m2 : Fin 2048) (l : Fin 9) (c : Fin 128) :
    rowsK li (ix3 m2 l c)
      = li (ix3 (⟨2 * m2.val + c.val / 64, by omega⟩ : Fin 4096) (⟨c.val % 64, by omega⟩ : Fin 64) l) := by
  unfold rowsK
  have e := transpose_apply (s := S2048x128x9) (t := S2048x9x128) [0, 2, 1]
    (shapeCast S2048x128x9 li shapeCasts_S4096x64x9_S2048x128x9) transposes_S2048x128x9_S2048x9x128_0_2_1
    (ix3 m2 l c) (ix3 m2 c l) (fun b => match b with | ⟨0, _⟩ => rfl | ⟨1, _⟩ => rfl | ⟨2, _⟩ => rfl)
  refine e.trans ?_
  refine shapeCast_apply (s := S4096x64x9) (t := S2048x128x9) li shapeCasts_S4096x64x9_S2048x128x9 (ix3 m2 c l)
    (ix3 (⟨2 * m2.val + c.val / 64, by omega⟩ : Fin 4096) (⟨c.val % 64, by omega⟩ : Fin 64) l) ?_
  rw [Shape.rowMajor_val_three, Shape.rowMajor_val_three]
  show ((2 * m2.val + c.val / 64) * 64 + c.val % 64) * 9 + l.val = (m2.val * 128 + c.val) * 9 + l.val
  omega

/-- The divisor the remainder is taken by: 64 is not zero, so it stays 64. -/
theorem divisor_eq : Scalar.select (IntOp.cmpi .eq (64#32 : BitVec 32) 0#32) (1#32 : BitVec 32) 64#32 = 64#32 := by decide

/-- The channel word of lane `c`: the corrected remainder of the lane's word by 64. -/
theorem chanK_apply (c : Fin 128) :
    chanK (iotaInDim S128 32 0) (constantI S_ 32 64#32) (ix1 c) = remChan (BitVec.ofNat 32 c.val) := by
  show Scalar.select
      (IntOp.andi
        (IntOp.cmpi .ne
          (IntOp.cmpi .slt (IntOp.remsi .host (BitVec.ofNat 32 c.val)
            (Scalar.select (IntOp.cmpi .eq (64#32 : BitVec 32) 0#32) (1#32 : BitVec 32) 64#32)) 0#32)
          (IntOp.cmpi .slt (Scalar.select (IntOp.cmpi .eq (64#32 : BitVec 32) 0#32) (1#32 : BitVec 32) 64#32) 0#32))
        (IntOp.cmpi .ne (IntOp.remsi .host (BitVec.ofNat 32 c.val)
          (Scalar.select (IntOp.cmpi .eq (64#32 : BitVec 32) 0#32) (1#32 : BitVec 32) 64#32)) 0#32))
      (IntOp.addi (IntOp.remsi .host (BitVec.ofNat 32 c.val)
          (Scalar.select (IntOp.cmpi .eq (64#32 : BitVec 32) 0#32) (1#32 : BitVec 32) 64#32))
        (Scalar.select (IntOp.cmpi .eq (64#32 : BitVec 32) 0#32) (1#32 : BitVec 32) 64#32))
      (IntOp.remsi .host (BitVec.ofNat 32 c.val)
        (Scalar.select (IntOp.cmpi .eq (64#32 : BitVec 32) 0#32) (1#32 : BitVec 32) 64#32)) = _
  rw [divisor_eq]
  rfl

/-- Component 0 of the start index at `(m2, l, c)`: the wrapped row word. -/
theorem startK_row (rows : IVec S2048x9x128 32) (chan : IVec S128 32) (m2 : Fin 2048) (l : Fin 9) (c : Fin 128) :
    startK rows chan (ix4 m2 l c (0 : Fin 2)) = wrapRow (rows (ix3 m2 l c)) := by
  unfold startK
  have e := concatenate_pair_apply_left (t := S2048x9x128x2) (s₁ := S2048x9x128x1) (s₂ := S2048x9x128x1) (3 : Fin 4)
    (rowPiece rows) (chanPiece chan) concatenates_S2048x9x128x1_S2048x9x128x1_S2048x9x128x2_d3
    (ix4 m2 l c (0 : Fin 2)) rfl (ix4 m2 l c (0 : Fin 1))
    (fun b => match b with | ⟨0, _⟩ => rfl | ⟨1, _⟩ => rfl | ⟨2, _⟩ => rfl | ⟨3, _⟩ => rfl)
  refine e.trans ?_
  unfold rowPiece
  have e' := broadcastInDim_apply (s := S2048x9x128) (t := S2048x9x128x1) ![0, 1, 2] bcast_S2048x9x128_S2048x9x128x1_0_1_2
    (select (cmpi .slt rows (broadcastInDim S2048x9x128 ![] bcast_S_S2048x9x128 (constantI S_ 32 0#32)))
      (addi rows (broadcastInDim S2048x9x128 ![] bcast_S_S2048x9x128 (constantI S_ 32 65536#32))) rows)
    (ix4 m2 l c (0 : Fin 1)) (ix3 m2 l c) (fun a => match a with
      | ⟨0, _⟩ => by show m2.val = if (2048 : Nat) = 1 then 0 else m2.val; rw [if_neg (by decide)]
      | ⟨1, _⟩ => by show l.val = if (9 : Nat) = 1 then 0 else l.val; rw [if_neg (by decide)]
      | ⟨2, _⟩ => by show c.val = if (128 : Nat) = 1 then 0 else c.val; rw [if_neg (by decide)])
  refine e'.trans ?_
  rfl

/-- Component 1 of the start index at `(m2, l, c)`: the wrapped channel word of lane `c`. -/
theorem startK_chan (rows : IVec S2048x9x128 32) (chan : IVec S128 32) (m2 : Fin 2048) (l : Fin 9) (c : Fin 128) :
    startK rows chan (ix4 m2 l c (1 : Fin 2)) = wrapChan (chan (ix1 c)) := by
  unfold startK
  have e := concatenate_pair_apply_right (t := S2048x9x128x2) (s₁ := S2048x9x128x1) (s₂ := S2048x9x128x1) (3 : Fin 4)
    (rowPiece rows) (chanPiece chan) concatenates_S2048x9x128x1_S2048x9x128x1_S2048x9x128x2_d3
    (ix4 m2 l c (1 : Fin 2)) rfl rfl (ix4 m2 l c (0 : Fin 1))
    (fun b hb => match b, hb with
      | ⟨0, _⟩, _ => rfl | ⟨1, _⟩, _ => rfl | ⟨2, _⟩, _ => rfl | ⟨3, _⟩, hb => absurd rfl hb) rfl
  refine e.trans ?_
  unfold chanPiece
  have e1 := broadcastInDim_apply (s := S2048x9x128) (t := S2048x9x128x1) ![0, 1, 2] bcast_S2048x9x128_S2048x9x128x1_0_1_2
    (broadcastInDim S2048x9x128 ![0, 1, 2] bcast_S1x1x128_S2048x9x128_0_1_2 (chanRow chan))
    (ix4 m2 l c (0 : Fin 1)) (ix3 m2 l c) (fun a => match a with
      | ⟨0, _⟩ => by show m2.val = if (2048 : Nat) = 1 then 0 else m2.val; rw [if_neg (by decide)]
      | ⟨1, _⟩ => by show l.val = if (9 : Nat) = 1 then 0 else l.val; rw [if_neg (by decide)]
      | ⟨2, _⟩ => by show c.val = if (128 : Nat) = 1 then 0 else c.val; rw [if_neg (by decide)])
  have e2 := broadcastInDim_apply (s := S1x1x128) (t := S2048x9x128) ![0, 1, 2] bcast_S1x1x128_S2048x9x128_0_1_2
    (chanRow chan) (ix3 m2 l c) (ix3 (0 : Fin 1) (0 : Fin 1) c) (fun a => match a with
      | ⟨0, _⟩ => by show 0 = if (1 : Nat) = 1 then 0 else m2.val; rw [if_pos rfl]
      | ⟨1, _⟩ => by show 0 = if (1 : Nat) = 1 then 0 else l.val; rw [if_pos rfl]
      | ⟨2, _⟩ => by show c.val = if (128 : Nat) = 1 then 0 else c.val; rw [if_neg (by decide)])
  have e3 := broadcastInDim_apply (s := S128) (t := S1x1x128) ![2] bcast_S128_S1x1x128_2
    chan (ix3 (0 : Fin 1) (0 : Fin 1) c) (ix1 c) (fun a => match a with
      | ⟨0, _⟩ => by show c.val = if (128 : Nat) = 1 then 0 else c.val; rw [if_neg (by decide)])
  refine e1.trans (e2.trans ?_)
  unfold chanRow
  show Scalar.select (IntOp.cmpi .slt (broadcastInDim S1x1x128 ![2] bcast_S128_S1x1x128_2 chan (ix3 (0 : Fin 1) (0 : Fin 1) c)) 0#32)
      (IntOp.addi (broadcastInDim S1x1x128 ![2] bcast_S128_S1x1x128_2 chan (ix3 (0 : Fin 1) (0 : Fin 1) c)) 64#32)
      (broadcastInDim S1x1x128 ![2] bcast_S128_S1x1x128_2 chan (ix3 (0 : Fin 1) (0 : Fin 1) c)) = _
  rw [e3]
  rfl

/-- THE GATHERED ARRAY AT `(b, m2, l, c)`. -/
theorem gatheredK_apply (x : FVec F S16x65536x64 .f32) (rows : IVec S2048x9x128 32) (chan : IVec S128 32)
    (b : Fin 16) (m2 : Fin 2048) (l : Fin 9) (c : Fin 128) :
    gatheredK x rows chan (ix4 b m2 l c)
      = x (ix3 b (rowOf (rows (ix3 m2 l c)))
          (⟨min (wrapChan (chan (ix1 c))).toInt.toNat (64 - 1), by omega⟩ : Fin 64)) := by
  unfold gatheredK
  have e := gather_rowCol_apply (B := 16) (N := 65536) (P := 64) (A1 := 2048) (A2 := 9) (A3 := 128) (by decide) (by decide)
    Gen.gather_S16x65536x64_S2048x9x128x2_S16x2048x9x128_0_12_n_n_12_3_1611_wf x (startK rows chan) b m2 l c
  refine e.trans ?_
  refine congrArg x (funext fun a => Fin.ext ?_)
  match a with
  | ⟨0, _⟩ => rfl
  | ⟨1, _⟩ => show min (startK rows chan (ix4 m2 l c (0 : Fin 2))).toInt.toNat (65536 - 1) = _; rw [startK_row]; rfl
  | ⟨2, _⟩ => show min (startK rows chan (ix4 m2 l c (1 : Fin 2))).toInt.toNat (64 - 1) = _; rw [startK_chan]

/-- THE ENTRY THE RESULT `(b, m, p)` IS TAKEN OVER: position `m` sits in packed row `m / 2`, its channel `p` in lane
    `(m mod 2) · 64 + p`; there the gathered array holds `x` at batch `b`, the row `lrf[m, p, l]` names, channel `p`. -/
theorem gathered_entry (x : FVec F S16x65536x64 .f32) (li : IVec S4096x64x9 32)
    (b : Fin 16) (mm : Fin 4096) (p : Fin 64) (l : Fin 9) :
    gatheredK x (rowsK li) (chanK (iotaInDim S128 32 0) (constantI S_ 32 64#32))
        (ix4 b (⟨mm.val / 2, by omega⟩ : Fin 2048) l (⟨mm.val % 2 * 64 + p.val, by omega⟩ : Fin 128))
      = x (ix3 b (rowOf (li (ix3 mm p l))) p) := by
  have e1 := gatheredK_apply x (rowsK li) (chanK (iotaInDim S128 32 0) (constantI S_ 32 64#32)) b
    (⟨mm.val / 2, by omega⟩ : Fin 2048) l (⟨mm.val % 2 * 64 + p.val, by omega⟩ : Fin 128)
  refine e1.trans ?_
  refine congrArg x (funext fun a => Fin.ext ?_)
  match a with
  | ⟨0, _⟩ => rfl
  | ⟨1, _⟩ =>
    have e2 := rowsK_apply li (⟨mm.val / 2, by omega⟩ : Fin 2048) l (⟨mm.val % 2 * 64 + p.val, by omega⟩ : Fin 128)
    have hi : (ix3 (⟨2 * (mm.val / 2) + (mm.val % 2 * 64 + p.val) / 64, by omega⟩ : Fin 4096)
        (⟨(mm.val % 2 * 64 + p.val) % 64, by omega⟩ : Fin 64) l : S4096x64x9.Idx) = ix3 mm p l :=
      funext fun a' => Fin.ext (by
        match a' with
        | ⟨0, _⟩ => show 2 * (mm.val / 2) + (mm.val % 2 * 64 + p.val) / 64 = mm.val; omega
        | ⟨1, _⟩ => show (mm.val % 2 * 64 + p.val) % 64 = p.val; omega
        | ⟨2, _⟩ => rfl)
    exact congrArg (fun w : BitVec 32 => (rowOf w).val) (e2.trans (congrArg li hi))
  | ⟨2, _⟩ =>
    have e3 := chanK_apply (⟨mm.val % 2 * 64 + p.val, by omega⟩ : Fin 128)
    refine (congrArg (fun w : BitVec 32 => min (wrapChan w).toInt.toNat (64 - 1)) e3).trans ?_
    refine (chan_ker (⟨mm.val % 2 * 64 + p.val, by omega⟩ : Fin 128)).trans ?_
    show (mm.val % 2 * 64 + p.val) % 64 = p.val
    omega

end Cert.KernelIdeal.KerHost

end
-- ==== Proof.KerRun.lean ====
/-
  The idealized kernel's run, with its result named.

  After the region the host code reshapes the region's output `[16, 2048, 128]` to `[16, 4096, 64]`: result
  `(b, m, p)` is the output at `(b, m / 2, (m mod 2) · 64 + p)` (same row-major position), which is the maximum over
  the nine rows of the gathered array there, which is the maximum over `l` of `x[b, row(lrf[m, p, l]), p]`.
-/
import proofs.«178115_j15247133900972_2_alg».proof.Proof.KerBlocks
import proofs.«178115_j15247133900972_2_alg».proof.Proof.KerHostRead
import Idealize.ShloMosaic.Lib.StableHlo.Run

noncomputable section

namespace Cert.KernelIdeal.KerValue

open Cert.KernelIdeal Cert.KernelIdeal.Gen Cert.KernelIdeal.KerHost
open Idealize.ShloMosaic Idealize.ShloMosaic.TcCoe Idealize.ShloMosaic.ValueIdx Idealize.SL.Sem Cert.LrfMax
open Idealize.ShloMosaic.StableHlo

variable (m : (ℓ : Loc nD τ sig) → Buf (Elt Ideal) ℓ) (ρ : Dev nD → PrngReg)

/-- The result buffer after the host code that follows the region: the region's output array, reshaped. -/
theorem tail_result (c : Dev nD) :
    (Pipeline.afterTail₀ cfgs (dats m) 0 (V0 m) [hostOps1] c main_v21 : FVec Ideal S16x4096x64 .f32)
      = shapeCast S16x4096x64 (rowMaxAll (V m c main_v19)) shapeCasts_S16x2048x128_S16x4096x64 := by
  unfold Pipeline.afterTail₀
  show StableHlo.after hostOps1 _ (Proc.devRef .tc main_v21) = _
  after_results
  rw [(Pipeline.withArrays_arr spec0 launch0.win.arr_inj c _ _ 1).trans (region_out m c)]
  rfl

/-- THE KERNEL'S RESULT IS `pooled` of its two arguments as launched. -/
theorem result_eq (c : Dev nD) :
    (Pipeline.afterTail₀ cfgs (dats m) 0 (V0 m) [hostOps1] c main_v21 : FVec Ideal S16x4096x64 .f32)
      = pooled (m ((c : Thread nD τ).loc main_arg0)) (m ((c : Thread nD τ).loc main_arg1)) := by
  rw [tail_result]
  funext j
  obtain ⟨b, mm, p, rfl⟩ : ∃ (b : Fin 16) (mm : Fin 4096) (p : Fin 64), j = ix3 b mm p := ⟨j 0, j 1, j 2, eq_ix3 j⟩
  have e := shapeCast_apply (s := S16x2048x128) (t := S16x4096x64) (rowMaxAll (V m c main_v19))
    shapeCasts_S16x2048x128_S16x4096x64 (ix3 b mm p)
    (ix3 b (⟨mm.val / 2, by omega⟩ : Fin 2048) (⟨mm.val % 2 * 64 + p.val, by omega⟩ : Fin 128)) (by
      rw [Shape.rowMajor_val_three, Shape.rowMajor_val_three]
      show (b.val * 2048 + mm.val / 2) * 128 + (mm.val % 2 * 64 + p.val) = (b.val * 4096 + mm.val) * 64 + p.val
      omega)
  refine e.trans ?_
  rw [rowMaxAll_apply, pooled_apply, entry_gathered]
  exact congrArg max9 (funext fun l => gathered_entry _ _ b mm p l)

/-- The idealized kernel's run: every weakly fair execution terminates with the result buffer at `pooled` of the
    arguments and the arguments unchanged. -/
theorem run : θ_run defs (onTc (τ := τ) (main (F := Ideal))) ⟨m, fun _ => 0, ρ⟩ fun r => ∀ c : Dev nD,
      r.2.mem ((c.tc : Thread nD τ).loc main_v21)
          = pooled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v21 (Pipeline.mem_restRefs_of main_v21 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerValue

end
-- ==== Proof.RefValue.lean ====
/-
  The reference's result is `pooled` of its two arguments.

  The reference gathers `x[b, row, p]` for every `(b, m, p, l)`, the row and the channel taken from a start-index
  array `[4096, 64, 9, 2]` that joins the wrapped row words `lrf[m, p, l]` (component 0) and the wrapped channel
  words of `p` (component 1), and then takes the maximum over `l`.  Read at `(b, m, p)`: the maximum over the nine
  coordinates of the dropped axis of the gathered array at `(b, m, p, l)`, which is `x` at batch `b`, the row the
  word `lrf[m, p, l]` names, and channel `p`.
-/
import proofs.«178115_j15247133900972_2_alg».proof.Proof.Gen.ReferenceIdeal.Read
import proofs.«178115_j15247133900972_2_alg».proof.Proof.Spec
import proofs.«178115_j15247133900972_2_alg».proof.Proof.LibGatherRowCol
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.GatherRowCol Cert.LrfMax

/-- Component 0 of the start index at `(m, p, l)` is the wrapped row word `lrf[m, p, l]`. -/
theorem start_row (x1 : IVec S4096x64x9 32) (m : Fin 4096) (p : Fin 64) (l : Fin 9) :
    val_main_v15 (F := Ideal) x1 (ix4 m p l (0 : Fin 2)) = wrapRow (x1 (ix3 m p l)) := by
  unfold val_main_v15
  refine (concatenate_pair_apply_left (t := S4096x64x9x2) (s₁ := S4096x64x9x1) (s₂ := S4096x64x9x1) (3 : Fin 4)
    (val_main_v13 (F := Ideal) x1) (val_main_v14 (F := Ideal)) _ (ix4 m p l (0 : Fin 2)) rfl (ix4 m p l (0 : Fin 1))
    (fun b => match b with | ⟨0, _⟩ => rfl | ⟨1, _⟩ => rfl | ⟨2, _⟩ => rfl | ⟨3, _⟩ => rfl)).trans ?_
  have e : idx_main_v13 (ix4 m p l (0 : Fin 1)) = ix3 m p l :=
    funext fun a => Fin.ext (by match a with | ⟨0, _⟩ => rfl | ⟨1, _⟩ => rfl | ⟨2, _⟩ => rfl)
  rw [val_main_v13_apply, e, val_main_v6_apply, val_main_v3_apply, val_main_v5_apply, val_main_v2_apply,
    val_main_v4_apply, val_main_c_apply, val_main_c_0_apply]
  rfl

/-- Component 1 of the start index at `(m, p, l)` is the wrapped channel word of `p`. -/
theorem start_chan (x1 : IVec S4096x64x9 32) (m : Fin 4096) (p : Fin 64) (l : Fin 9) :
    val_main_v15 (F := Ideal) x1 (ix4 m p l (1 : Fin 2)) = wrapChan (BitVec.ofNat 32 p.val) := by
  unfold val_main_v15
  refine (concatenate_pair_apply_right (t := S4096x64x9x2) (s₁ := S4096x64x9x1) (s₂ := S4096x64x9x1) (3 : Fin 4)
    (val_main_v13 (F := Ideal) x1) (val_main_v14 (F := Ideal)) _ (ix4 m p l (1 : Fin 2)) rfl rfl (ix4 m p l (0 : Fin 1))
    (fun b hb => match b, hb with
      | ⟨0, _⟩, _ => rfl | ⟨1, _⟩, _ => rfl | ⟨2, _⟩, _ => rfl | ⟨3, _⟩, hb => absurd rfl hb) rfl).trans ?_
  have e14 : idx_main_v14 (ix4 m p l (0 : Fin 1)) = ix3 m p l :=
    funext fun a => Fin.ext (by match a with | ⟨0, _⟩ => rfl | ⟨1, _⟩ => rfl | ⟨2, _⟩ => rfl)
  have e12 : idx_main_v12 (ix3 m p l) = ix3 (0 : Fin 1) p (0 : Fin 1) :=
    funext fun a => Fin.ext (by match a with | ⟨0, _⟩ => rfl | ⟨1, _⟩ => rfl | ⟨2, _⟩ => rfl)
  have e1 : idx_main_v1 (ix3 (0 : Fin 1) p (0 : Fin 1)) = ix1 p :=
    funext fun a => Fin.ext (by match a with | ⟨0, _⟩ => rfl)
  rw [val_main_v14_apply, e14, val_main_v12_apply, e12, val_main_v11_apply, val_main_v8_apply, val_main_v10_apply,
    val_main_v7_apply, val_main_v9_apply, val_main_v1_apply, e1, val_main_v0_apply, val_main_c_1_apply, val_main_c_2_apply]
  rfl

/-- The gathered array at `(b, m, p, l)` is `x` at batch `b`, the row `lrf[m, p, l]` names, channel `p`. -/
theorem gathered_apply (x0 : FVec Ideal S16x65536x64 .f32) (x1 : IVec S4096x64x9 32)
    (b : Fin 16) (m : Fin 4096) (p : Fin 64) (l : Fin 9) :
    val_main_v16 (F := Ideal) x0 x1 (ix4 b m p l) = x0 (ix3 b (rowOf (x1 (ix3 m p l))) p) := by
  unfold val_main_v16
  refine (gather_rowCol_apply (by decide) (by decide)
    Gen.gather_S16x65536x64_S4096x64x9x2_S16x4096x64x9_0_12_n_n_12_3_1611_wf x0 (val_main_v15 (F := Ideal) x1) b m p l).trans ?_
  refine congrArg x0 (funext fun a => Fin.ext ?_)
  match a with
  | ⟨0, _⟩ => rfl
  | ⟨1, _⟩ => show min (val_main_v15 (F := Ideal) x1 (ix4 m p l (0 : Fin 2))).toInt.toNat (65536 - 1) = _; rw [start_row]; rfl
  | ⟨2, _⟩ => show min (val_main_v15 (F := Ideal) x1 (ix4 m p l (1 : Fin 2))).toInt.toNat (64 - 1) = _; rw [start_chan]; exact chan_ref p

/-- THE REFERENCE IS `pooled`. -/
theorem result_eq (x0 : FVec Ideal S16x65536x64 .f32) (x1 : IVec S4096x64x9 32) :
    val_main_v17 (F := Ideal) x0 x1 = pooled x0 x1 := by
  funext j
  obtain ⟨b, m, p, rfl⟩ : ∃ (b : Fin 16) (m : Fin 4096) (p : Fin 64), j = ix3 b m p := ⟨j 0, j 1, j 2, eq_ix3 j⟩
  have hred : Shape.Reduces S16x4096x64x9 [3] S16x4096x64 := by decide
  unfold val_main_v17
  rw [Host.reduce_eq_fold_single FloatOps.maximumf _ _ _ hred Gen.h_S_ (ix3 b m p), pooled_apply]
  show (Finset.univ : Finset (Fin 9)).fold max (Ideal.ofBits .f32 0xFF800000#32) _ = _
  unfold max9
  refine congrArg (fun f => (Finset.univ : Finset (Fin 9)).fold max (Ideal.ofBits .f32 0xFF800000#32) f) (funext fun (l : Fin 9) => ?_)
  have hl : hred.lift (ix3 b m p) l = ix4 b m p l :=
    funext fun a => Fin.ext (by match a with | ⟨0, _⟩ => rfl | ⟨1, _⟩ => rfl | ⟨2, _⟩ => rfl | ⟨3, _⟩ => rfl)
  show val_main_v16 (F := Ideal) x0 x1 (hred.lift (ix3 b m p) l) = _
  rw [hl]
  exact gathered_apply x0 x1 b m p l

end Cert.ReferenceIdeal.RefValue

end
-- ==== Proof.lean ====
/-
  The certificate's five claims.

  Both programs compute, at `(b, m, p)`, the maximum over `l = 0 … 8` of `x[b, row(lrf[m, p, l]), p]` (`Spec.lean`,
  `pooled`): the reference gathers `[16, 4096, 64, 9]` entries and reduces the last axis; the kernel packs two
  consecutive positions into one 128-lane row, gathers `[16, 2048, 9, 128]` entries, reduces the nine rows in a
  pallas region block by block, and unpacks by a reshape.  A maximum is insensitive to order and grouping, and the
  gathered entries are the same entries of `x`, so the two results agree for all inputs: the precondition is not
  used.  The frames are the generated ones (the reference's is its run with the result dropped), and no operation of
  the kernel was rewritten by the idealization, so there is nothing to preserve.
-/
import proofs.«178115_j15247133900972_2_alg».proof.Defs
import proofs.«178115_j15247133900972_2_alg».proof.Proof.Gen.Kernel
import proofs.«178115_j15247133900972_2_alg».proof.Proof.Gen.Kernel.Frame
import proofs.«178115_j15247133900972_2_alg».proof.Proof.Gen.KernelIdeal
import proofs.«178115_j15247133900972_2_alg».proof.Proof.Gen.KernelIdeal.Frame
import proofs.«178115_j15247133900972_2_alg».proof.Proof.Gen.ReferenceIdeal
import proofs.«178115_j15247133900972_2_alg».proof.Proof.Gen.ReferenceIdeal.Run
import proofs.«178115_j15247133900972_2_alg».proof.Proof.Gen.ReferenceIdeal.Read
import proofs.«178115_j15247133900972_2_alg».proof.Proof.Gen.Pre_finite_inputs
import proofs.«178115_j15247133900972_2_alg».proof.Proof.KerRun
import proofs.«178115_j15247133900972_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with their result at `pooled` of the arguments, and the arguments agree. -/
theorem algebraic : Cert.algebraic_KernelIdeal_ReferenceIdeal := by
  intro m ρ m' ρ' _ hagree
  refine ⟨fun c => Cert.LrfMax.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KerValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
